-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4096x1024 : Shape := ⟨2, ![4096, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x4096x1024 .f32) (main_arg1 : FVec F S4096x1024 .f32) (main_arg2 : FVec F S1024 .f32) (main_arg3 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x4096x1024 : Shape := ⟨3, ![4, 4096, 1024]⟩
abbrev S4096x1024 : Shape := ⟨2, ![4096, 1024]⟩
abbrev S1024 : Shape := ⟨1, ![1024]⟩
abbrev S1x1024 : Shape := ⟨2, ![1, 1024]⟩
abbrev S4x512x1024 : Shape := ⟨3, ![4, 512, 1024]⟩
abbrev S512x1024 : Shape := ⟨2, ![512, 1024]⟩
abbrev S1x512x1024 : Shape := ⟨3, ![1, 512, 1024]⟩
abbrev S4x512 : Shape := ⟨2, ![4, 512]⟩
abbrev S4x512x1 : Shape := ⟨3, ![4, 512, 1]⟩
abbrev S1x1x1024 : Shape := ⟨3, ![1, 1, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4x4096x1024, .f32⟩
  | .local _ .vmem, ⟨0, _⟩ => ⟨S4x512x1024, .f32⟩
  | .local _ .vmem, ⟨1, _⟩ => ⟨S4x512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S4x512x1024, .f32⟩
  | .local _ .vmem, ⟨7, _⟩ => ⟨S4x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024_S1x1024 : S1024.ShapeCasts S1x1024
  inb_S4x512x1024_S4x512x1024_0_0_0 : ∀ a, (![0, 0, 0] : Fin 3 → Nat) a + S4x512x1024.size a ≤ S4x512x1024.size a
  h_S4x512x1024 : 0 < S4x512x1024.numel
  inb_S512x1024_S512x1024_0_0 : ∀ a, (![0, 0] : Fin 2 → Nat) a + S512x1024.size a ≤ S512x1024.size a
  h_S512x1024 : 0 < S512x1024.numel
  shapeCasts_S512x1024_S1x512x1024 : S512x1024.ShapeCasts S1x512x1024
  broadcasts_S1x512x1024_S4x512x1024 : S1x512x1024.Broadcasts S4x512x1024
  reduces_S4x512x1024_S4x512 : S4x512x1024.Reduces [2] S4x512
  shapeCasts_S4x512_S4x512x1 : S4x512.ShapeCasts S4x512x1
  broadcasts_S4x512x1_S4x512x1024 : S4x512x1.Broadcasts S4x512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1x1x1024 : S1x1024.ShapeCasts S1x1x1024
  broadcasts_S1x1x1024_S4x512x1024 : S1x1x1024.Broadcasts S4x512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S4x4096x1024.size a
  hwx0_0 : ∀ i : grid0.Coords, EltTy.bits .f32 = 32 ∨ (Rect.block (s := S4x4096x1024) S4x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x1024.size a ≤ S4x4096x1024.size a
  hwx0_4 : ∀ i : grid0.Coords, EltTy.bits .f32 = 32 ∨ (Rect.block (s := S4x4096x1024) S4x512x1024.size (cc0_transform_4 i) (hinb0_4 i)).WholeWords (EltTy.packing .f32)

variable [Facts₀]

abbrev win0_0 : Pipeline.Window sig grid0 :=
  Pipeline.Window.ofSpec (Memref.whole main_arg0) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4096x1024 : Shape := ⟨2, ![4096, 1024]⟩
abbrev S1024 : Shape := ⟨1, ![1024]⟩
abbrev S4096 : Shape := ⟨1, ![4096]⟩
abbrev S1x4096 : Shape := ⟨2, ![1, 4096]⟩
abbrev S4x4096 : Shape := ⟨2, ![4, 4096]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096, .i32⟩
  | .hbm, ⟨5, _⟩ => ⟨S1x4096, .i32⟩
  | .hbm, ⟨6, _⟩ => ⟨S4x4096, .i32⟩
  | .hbm, ⟨7, _⟩ => ⟨S_, .i32⟩
  | .hbm, ⟨8, _⟩ => ⟨S4x4096, .i32⟩
  | .hbm, ⟨9, _⟩ => ⟨S4x4096, .i1⟩
  | .hbm, ⟨10, _⟩ => ⟨S_, .i32⟩
  | .hbm, ⟨11, _⟩ => ⟨S4x4096, .i32⟩
  | .hbm, ⟨12, _⟩ => ⟨S4x4096, .i32⟩
  | .hbm, ⟨13, _⟩ => ⟨S4x4096, .i32⟩
  | .hbm, ⟨14, _⟩ => ⟨S4x4096x1, .i32⟩
  | .hbm, ⟨15, _⟩ => ⟨S1, .i32⟩
  | .hbm, ⟨16, _⟩ => ⟨S_, .i32⟩
  | .hbm, ⟨17, _⟩ => ⟨S4x4096x1, .i32⟩
  | .hbm, ⟨18, _⟩ => ⟨S4x4096x1, .i1⟩
  | .hbm, ⟨19, _⟩ => ⟨S1x1x1, .i32⟩
  | .hbm, ⟨20, _⟩ => ⟨S4x4096x1, .i32⟩
  | .hbm, ⟨21, _⟩ => ⟨S4x4096x1, .i1⟩
  | .hbm, ⟨22, _⟩ => ⟨S4x4096x1, .i1⟩
  | .hbm, ⟨23, _⟩ => ⟨S_, .i1⟩
  | .hbm, ⟨24, _⟩ => ⟨S4x4096, .i1⟩
  | .hbm, ⟨25, _⟩ => ⟨S4x4096x1024, .f32⟩
  | .hbm, ⟨26, _⟩ => ⟨S4x4096x1024, .i1⟩
  | .hbm, ⟨27, _⟩ => ⟨S_, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1, .f32⟩
  | .hbm, ⟨52, _⟩ => ⟨S4x4096x1024, .f32⟩
  | .hbm, ⟨53, _⟩ => ⟨S4x4096x1024, .f32⟩
  | .hbm, ⟨54, _⟩ => ⟨S1x1x1024, .f32⟩
  | .hbm, ⟨55, _⟩ => ⟨S4x4096x1024, .f32⟩
  | .hbm, ⟨56, _⟩ => ⟨S4x4096x1024, .f32⟩
  | .hbm, ⟨57, _⟩ => ⟨S1x1x1024, .f32⟩
  | .hbm, ⟨58, _⟩ => ⟨S4x4096x1024, .f32⟩
  | .hbm, ⟨59, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4x4096_0_1 : S1x4096.BroadcastsInDim S4x4096 (![0, 1] : Fin 2 → Fin S4x4096.rank)
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  reducesTo_S4x4096x1_S4x4096_d2 : S4x4096x1.ReducesTo [2] S4x4096
  h_S_ : 0 < S_.numel
  bcast_S4x4096_S4x4096x1024_0_1 : S4x4096.BroadcastsInDim S4x4096x1024 (![0, 1] : Fin 2 → Fin S4x4096x1024.rank)
  bcast_S_S4x4096x1024 : S_.BroadcastsInDim S4x4096x1024 (![] : Fin 0 → Fin S4x4096x1024.rank)
  reducesTo_S4x4096x1024_S4x4096_d2 : S4x4096x1024.ReducesTo [2] S4x4096
  bcast_S4x4096x1_S4x4096x1024_0_1_2 : S4x4096x1.BroadcastsInDim S4x4096x1024 (![0, 1, 2] : Fin 3 → Fin S4x4096x1024.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  gather_S4096x1024_S4x4096x1_S4x4096x1024_2_0_n_n_0_2_11024_wf : GatherDims.WF S4096x1024 S4x4096x1 S4x4096x1024 [2] [0] [] [0] [] 2 ![1, 1024]

variable [Facts₀]

def gather_S4096x1024_S4x4096x1_S4x4096x1024_2_0_n_n_0_2_11024 : GatherDims S4096x1024 S4x4096x1 S4x4096x1024 where
  offsetDims := [2]
  collapsedSliceDims := [0]
  operandBatchingDims := []
  startIndicesBatchingDims := []
  startIndexMap := [0]
  indexVectorDim := 2
  sliceSizes := ![1, 1024]
  wf := gather_S4096x1024_S4x4096x1_S4x4096x1024_2_0_n_n_0_2_11024_wf

class Facts : Prop extends Facts₀ where

variable [Facts]
-- ==== Proof.LayerNorm.lean ====
/-
  Layer normalisation of a row of 1024 extended reals, as both programs compute it, and the one law that joins them.
  For a row x: its mean is the row's sum divided by the row length, its variance the sum of the squared deviations
  from the mean divided by the row length, and the normalised entry is the deviation times the reciprocal square
  root of (variance + epsilon) in one program, the deviation divided by the square root of (variance + epsilon) in
  the other. A square is never negative on the extended reals (the square of either infinity is +∞), so the variance
  is never negative, variance + epsilon is a positive real or +∞, and there a times the reciprocal square root is
  a divided by the square root, for every extended real a: no finiteness of the row is needed.
  The common result G of the four argument arrays is stated index by index: at (b, s, h) the row is
  x k = A (b, s, k) + P (s, k), and the entry is its normalised h-th entry times W h plus B h.
-/
import Idealize.ShloMosaic.PureOps.Ideal
import Idealize.ShloMosaic.Lib.ValueIdx

noncomputable section

namespace Cert.LayerNorm

open Idealize.ShloMosaic Idealize.ShloMosaic.ValueIdx
open scoped BigOperators

/-! ## The two literals -/

/-- The word of 1024.0 denotes the real 1024. -/
theorem ofBits_len : Ideal.ofBits .f32 0x44800000#32 = ((1024 : ℝ) : EReal) := by
  simp [Ideal.ofBits, Ideal.ieee, -EReal.coe_mul]; norm_num

/-- The epsilon's word denotes the real 10995116 / 2 ^ 40 (about 1e-5). -/
theorem ofBits_eps : Ideal.ofBits .f32 0x3727C5AC#32 = (((10995116 : ℝ) / 1099511627776 : ℝ) : EReal) := by
  simp [Ideal.ofBits, Ideal.ieee, -EReal.coe_mul]; norm_num

/-! ## Signs on the extended reals -/

/-- A square is nonnegative: the square of either infinity is +∞. -/
theorem mul_self_nonneg (x : EReal) : 0 ≤ x * x := by
  induction x using EReal.rec
  · simp
  · exact_mod_cast _root_.mul_self_nonneg _
  · simp

/-- A nonnegative extended real divided by the row length is nonnegative. -/
theorem div_len_nonneg (a : EReal) (ha : 0 ≤ a) : 0 ≤ Ideal.div a (Ideal.ofBits .f32 0x44800000#32) := by
  rw [ofBits_len, Ideal.div_coe (by norm_num)]
  induction a using EReal.rec
  · exact absurd ha (by simp)
  · rename_i r
    have hr : 0 ≤ r := by exact_mod_cast ha
    exact_mod_cast mul_nonneg hr (by norm_num)
  · rw [EReal.top_mul_of_pos (by exact_mod_cast (by norm_num : (0 : ℝ) < 1 / 1024))]
    exact le_top

/-- A nonnegative extended real plus epsilon is positive. -/
theorem add_eps_pos (a : EReal) (ha : 0 ≤ a) : 0 < a + Ideal.ofBits .f32 0x3727C5AC#32 := by
  rw [ofBits_eps]
  induction a using EReal.rec
  · exact absurd ha (by simp)
  · rename_i r
    have hr : 0 ≤ r := by exact_mod_cast ha
    exact_mod_cast add_pos_of_nonneg_of_pos hr (by norm_num)
  · rw [EReal.top_add_coe]; exact EReal.zero_lt_top

/-- THE LAW: at a positive extended real v, times the reciprocal square root is divided by the square root. -/
theorem mul_rsqrt_eq_div_sqrt (a v : EReal) (hv : 0 < v) : a * Ideal.rsqrt v = Ideal.div a (Ideal.sqrt v) := by
  induction v using EReal.rec
  · exact absurd hv (by simp)
  · rename_i r
    have hr : 0 < r := by exact_mod_cast hv
    have hs : (Real.sqrt r : EReal) ≠ 0 := by exact_mod_cast (Real.sqrt_pos.mpr hr).ne'
    rw [Ideal.rsqrt_coe, Ideal.sqrt_coe, if_neg (not_lt.mpr hr.le), if_neg hr.ne', if_neg (not_lt.mpr hr.le)]
    unfold Ideal.div
    rw [if_neg hs, EReal.coe_inv]
  · rw [Ideal.rsqrt_top, Ideal.sqrt_top]
    unfold Ideal.div
    rw [if_neg EReal.top_ne_zero, EReal.inv_top]

/-! ## A row's statistics -/

/-- The row's sum divided by the row length. -/
def mean (x : Fin 1024 → EReal) : EReal := Ideal.div (∑ k, x k) (Ideal.ofBits .f32 0x44800000#32)

/-- The sum of the squared deviations from the mean, divided by the row length. -/
def var (x : Fin 1024 → EReal) : EReal :=
  Ideal.div (∑ k, (x k - mean x) * (x k - mean x)) (Ideal.ofBits .f32 0x44800000#32)

/-- The variance plus epsilon: what both programs take a square root of. -/
def shifted (x : Fin 1024 → EReal) : EReal := var x + Ideal.ofBits .f32 0x3727C5AC#32

theorem var_nonneg (x : Fin 1024 → EReal) : 0 ≤ var x :=
  div_len_nonneg _ (Finset.sum_nonneg fun _ _ => mul_self_nonneg _)

theorem shifted_pos (x : Fin 1024 → EReal) : 0 < shifted x := add_eps_pos _ (var_nonneg x)

/-- The two programs' normalised entries agree on every row. -/
theorem scaled_eq (x : Fin 1024 → EReal) (a : EReal) :
    a * Ideal.rsqrt (shifted x) = Ideal.div a (Ideal.sqrt (shifted x)) :=
  mul_rsqrt_eq_div_sqrt a _ (shifted_pos x)

/-! ## The common result -/

/-- The row at batch b and position s: the input's row plus the position table's row s. -/
def row (A : (⟨3, ![4, 4096, 1024]⟩ : Shape).Idx → EReal) (P : (⟨2, ![4096, 1024]⟩ : Shape).Idx → EReal)
    (b : Fin 4) (s : Fin 4096) : Fin 1024 → EReal := fun k => A (ix3 b s k) + P (ix2 s k)

/-- The result's entry at (b, s, h). -/
def entry (A : (⟨3, ![4, 4096, 1024]⟩ : Shape).Idx → EReal) (P : (⟨2, ![4096, 1024]⟩ : Shape).Idx → EReal)
    (W B : (⟨1, ![1024]⟩ : Shape).Idx → EReal) (b : Fin 4) (s : Fin 4096) (h : Fin 1024) : EReal :=
  Ideal.div (row A P b s h - mean (row A P b s)) (Ideal.sqrt (shifted (row A P b s))) * W (ix1 h) + B (ix1 h)

/-- The result array as one function of the four argument arrays. -/
def G (A : (⟨3, ![4, 4096, 1024]⟩ : Shape).Idx → EReal) (P : (⟨2, ![4096, 1024]⟩ : Shape).Idx → EReal)
    (W B : (⟨1, ![1024]⟩ : Shape).Idx → EReal) : (⟨3, ![4, 4096, 1024]⟩ : Shape).Idx → EReal :=
  fun i => entry A P W B (i 0) (i 1) (i 2)

end Cert.LayerNorm

end
-- ==== Proof.KernelBlock.lean ====
/-
  What one grid point leaves in its output block, index by index.
  The point's operands are a [4, 512, 1024] block X of the input, a [512, 1024] block Q of the position table and
  the [1, 1024] weight and bias. The body adds Q to each of the four batch slices of X, sums each row over the
  hidden axis (a lane sum: at (b, r) the sum over k of the summand at (b, r, k)), divides by the row length,
  subtracts, sums the squares the same way, and scales by the reciprocal square root of (variance + epsilon).
  So at (b, r, h) the block holds the layer normalisation of the row k ↦ X (b, r, k) + Q (r, k), read at h,
  times the weight at h plus the bias at h; written with the division by the square root, by the law of the
  specification (variance + epsilon is positive).
-/
import proofs.«172697_g1580547974938_cont_week2b_934_16_alg».proof.Proof.Gen.KernelIdeal.Value
import proofs.«172697_g1580547974938_cont_week2b_934_16_alg».proof.Proof.LayerNorm
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Cert.KernelIdeal.Value Idealize.ShloMosaic Idealize.ShloMosaic.ValueIdx
open scoped BigOperators

/-! ## The body's layout operations at block coordinates -/

section Layout
variable {α : Type}

/-- The position block under a leading unit axis, spread over the four batch slices, at (b, r, k) is the block at (r, k). -/
theorem posBlock_apply (v : S512x1024.Idx → α) (b : Fin 4) (r : Fin 512) (k : Fin 1024) :
    broadcastTo S4x512x1024 (shapeCast S1x512x1024 v shapeCasts_S512x1024_S1x512x1024) broadcasts_S1x512x1024_S4x512x1024 (ix3 b r k)
      = v (ix2 r k) :=
  (broadcastTo_apply _ _ (ix3 b r k) (ix3 (0 : Fin 1) r k)
      (fun a => match a with | ⟨0, _⟩ => rfl | ⟨1, _⟩ => rfl | ⟨2, _⟩ => rfl)).trans
    (shapeCast_apply _ _ (ix3 (0 : Fin 1) r k) (ix2 r k) (by
      rw [Shape.rowMajor_val_two, Shape.rowMajor_val_three]
      show r.val * 1024 + k.val = (0 * 512 + r.val) * 1024 + k.val
      omega))

/-- A [4, 512, 1] column spread along the hidden axis, at (b, r, k), is the column at (b, r, 0). -/
theorem colBlock_apply (v : S4x512x1.Idx → α) (b : Fin 4) (r : Fin 512) (k : Fin 1024) :
    broadcastTo S4x512x1024 v broadcasts_S4x512x1_S4x512x1024 (ix3 b r k) = v (ix3 b r (0 : Fin 1)) :=
  broadcastTo_apply _ _ (ix3 b r k) (ix3 b r (0 : Fin 1))
    (fun a => match a with | ⟨0, _⟩ => rfl | ⟨1, _⟩ => rfl | ⟨2, _⟩ => rfl)

/-- A [4, 512] array under a trailing unit axis, at (b, r, 0), is the array at (b, r). -/
theorem keepBlock_apply (v : S4x512.Idx → α) (b : Fin 4) (r : Fin 512) :
    shapeCast S4x512x1 v shapeCasts_S4x512_S4x512x1 (ix3 b r (0 : Fin 1)) = v (ix2 b r) :=
  shapeCast_apply _ _ (ix3 b r (0 : Fin 1)) (ix2 b r) (by
    rw [Shape.rowMajor_val_two, Shape.rowMajor_val_three]
    show b.val * 512 + r.val = (b.val * 512 + r.val) * 1 + 0
    omega)

end Layout

/-- A lane sum over the hidden axis from the zero word, at (b, r): the sum over k of the summand at (b, r, k). -/
theorem laneSum_apply (src : FVec Ideal S4x512x1024 .f32) (hφ : FKind.Formats .f32)
    (hacc : (0x00000000#32 : BitVec 32) = 0x00000000#32) (b : Fin 4) (r : Fin 512) :
    multiReduction .add [2] S4x512 src 0x00000000#32 reduces_S4x512x1024_S4x512 hφ hacc (ix2 b r)
      = ∑ k : Fin 1024, src (ix3 b r k) := by
  refine (Ideal.multiReduction_add_single src 0x00000000#32 reduces_S4x512x1024_S4x512 hφ hacc (ix2 b r)).trans ?_
  show ∑ k : Fin 1024, src (reduces_S4x512x1024_S4x512.lift (ix2 b r) k) = _
  refine Finset.sum_congr rfl fun k _ => congrArg src (funext fun a => Fin.ext ?_)
  match a with
  | ⟨0, _⟩ => rfl
  | ⟨1, _⟩ => rfl
  | ⟨2, _⟩ => rfl

/-! ## The body's intermediate values, named -/

/-- The embedded rows of the block: the input block plus the position block on every batch slice. -/
def emb (X : FVec Ideal S4x512x1024 .f32) (Q : FVec Ideal S512x1024 .f32) : FVec Ideal S4x512x1024 .f32 :=
  addf X (broadcastTo S4x512x1024 (shapeCast S1x512x1024 Q shapeCasts_S512x1024_S1x512x1024) broadcasts_S1x512x1024_S4x512x1024)

/-- Their sums over the hidden axis. -/
def sums (X : FVec Ideal S4x512x1024 .f32) (Q : FVec Ideal S512x1024 .f32) : FVec Ideal S4x512 .f32 :=
  multiReduction .add [2] S4x512 (emb X Q) 0x00000000#32 reduces_S4x512x1024_S4x512 (.inl rfl) rfl

/-- The rows less their means. -/
def cen (X : FVec Ideal S4x512x1024 .f32) (Q : FVec Ideal S512x1024 .f32) : FVec Ideal S4x512x1024 .f32 :=
  subf (emb X Q) (broadcastTo S4x512x1024 (divf (shapeCast S4x512x1 (sums X Q) shapeCasts_S4x512_S4x512x1)
    (broadcast S4x512x1 (Scalar.ofBits .f32 0x44800000#32))) broadcasts_S4x512x1_S4x512x1024)

/-- The sums of their squares over the hidden axis. -/
def sqSums (X : FVec Ideal S4x512x1024 .f32) (Q : FVec Ideal S512x1024 .f32) : FVec Ideal S4x512 .f32 :=
  multiReduction .add [2] S4x512 (mulf (cen X Q) (cen X Q)) 0x00000000#32 reduces_S4x512x1024_S4x512 (.inl rfl) rfl

/-- The block a point leaves, over those names. -/
theorem E4_eq (X : FVec Ideal S4x512x1024 .f32) (Q : FVec Ideal S512x1024 .f32) (W B : FVec Ideal S1x1024 .f32) (y : S4x512x1024.Idx) :
    E4 (F := Ideal) X Q W B y
      = ((X (ix4_0 y) + Q (ix4_1 y) - Ideal.div (sums X Q (ix4_2 y)) (Ideal.ofBits .f32 0x44800000#32))
          * Ideal.rsqrt (Ideal.div (sqSums X Q (ix4_3 y)) (Ideal.ofBits .f32 0x44800000#32) + Ideal.ofBits .f32 0x3727C5AC#32))
        * W (ix4_4 y) + B (ix4_5 y) := rfl

/-! ## Read at block coordinates -/

/-- The row of the block at batch b and block row r. -/
def rowAt (X : FVec Ideal S4x512x1024 .f32) (Q : FVec Ideal S512x1024 .f32) (b : Fin 4) (r : Fin 512) : Fin 1024 → EReal :=
  fun k => X (ix3 b r k) + Q (ix2 r k)

theorem emb_apply (X : FVec Ideal S4x512x1024 .f32) (Q : FVec Ideal S512x1024 .f32) (b : Fin 4) (r : Fin 512) (k : Fin 1024) :
    emb X Q (ix3 b r k) = rowAt X Q b r k := by
  unfold emb
  rw [addf_apply, posBlock_apply]
  rfl

theorem sums_apply (X : FVec Ideal S4x512x1024 .f32) (Q : FVec Ideal S512x1024 .f32) (b : Fin 4) (r : Fin 512) :
    sums X Q (ix2 b r) = ∑ k : Fin 1024, rowAt X Q b r k := by
  unfold sums
  rw [laneSum_apply]
  exact Finset.sum_congr rfl fun k _ => emb_apply X Q b r k

theorem cen_apply (X : FVec Ideal S4x512x1024 .f32) (Q : FVec Ideal S512x1024 .f32) (b : Fin 4) (r : Fin 512) (k : Fin 1024) :
    cen X Q (ix3 b r k) = rowAt X Q b r k - LayerNorm.mean (rowAt X Q b r) := by
  unfold cen
  rw [subf_apply, emb_apply, colBlock_apply, divf_apply, keepBlock_apply, sums_apply, broadcast_apply]
  rfl

theorem sqSums_apply (X : FVec Ideal S4x512x1024 .f32) (Q : FVec Ideal S512x1024 .f32) (b : Fin 4) (r : Fin 512) :
    sqSums X Q (ix2 b r)
      = ∑ k : Fin 1024, (rowAt X Q b r k - LayerNorm.mean (rowAt X Q b r)) * (rowAt X Q b r k - LayerNorm.mean (rowAt X Q b r)) := by
  unfold sqSums
  rw [laneSum_apply]
  refine Finset.sum_congr rfl fun k _ => ?_
  rw [mulf_apply, cen_apply]

/-- THE BLOCK at (b, r, h): the normalised h-th entry of the row at (b, r), times the weight at h, plus the bias at h. -/
theorem block_apply (X : FVec Ideal S4x512x1024 .f32) (Q : FVec Ideal S512x1024 .f32) (W B : FVec Ideal S1x1024 .f32)
    (b : Fin 4) (r : Fin 512) (h : Fin 1024) :
    E4 (F := Ideal) X Q W B (ix3 b r h)
      = Ideal.div (rowAt X Q b r h - LayerNorm.mean (rowAt X Q b r)) (Ideal.sqrt (LayerNorm.shifted (rowAt X Q b r)))
          * W (ix2 (0 : Fin 1) h) + B (ix2 (0 : Fin 1) h) := by
  have i0 : ix4_0 (ix3 b r h) = ix3 b r h := by
    funext a; refine Fin.ext ?_
    match a with
    | ⟨0, _⟩ => rfl
    | ⟨1, _⟩ => rfl
    | ⟨2, _⟩ => rfl
  have i1 : ix4_1 (ix3 b r h) = ix2 r h := by
    funext a; refine Fin.ext ?_
    match a with
    | ⟨0, _⟩ => rfl
    | ⟨1, _⟩ => rfl
  have i2 : ix4_2 (ix3 b r h) = ix2 b r := by
    funext a; refine Fin.ext ?_
    match a with
    | ⟨0, _⟩ => rfl
    | ⟨1, _⟩ => rfl
  have i3 : ix4_3 (ix3 b r h) = ix2 b r := by
    funext a; refine Fin.ext ?_
    match a with
    | ⟨0, _⟩ => rfl
    | ⟨1, _⟩ => rfl
  have i4 : ix4_4 (ix3 b r h) = ix2 (0 : Fin 1) h := by
    funext a; refine Fin.ext ?_
    match a with
    | ⟨0, _⟩ => rfl
    | ⟨1, _⟩ => rfl
  have i5 : ix4_5 (ix3 b r h) = ix2 (0 : Fin 1) h := by
    funext a; refine Fin.ext ?_
    match a with
    | ⟨0, _⟩ => rfl
    | ⟨1, _⟩ => rfl
  rw [E4_eq, i0, i1, i2, i3, i4, i5, sums_apply, sqSums_apply, ← LayerNorm.scaled_eq]
  rfl

end Cert.KernelIdeal.Block

end
-- ==== Proof.KernelValue.lean ====
/-
  From the blocks to the whole result array.
  The grid has 8 points; point t's input block is rows 512 t … 512 t + 511 of every batch slice of the input, its
  position block the same rows of the position table, its weight and bias blocks the whole [1, 1024] reshapes of
  the two vectors, and its output block the same rows of the result. So an element (b, r, k) of the input block is
  the input at (b, 512 t + r, k), an element (r, k) of the position block the table at (512 t + r, k), and what the
  point leaves at (b, r, h) of the output block is the layer normalisation G of the argument arrays at
  (b, 512 t + r, h). Row s of the result lies in the block of point s / 512, so the eight blocks cover the array
  and the array ends holding G.
-/
import proofs.«172697_g1580547974938_cont_week2b_934_16_alg».proof.Proof.KernelBlock
import Idealize.ShloMosaic.Lib.StableHlo.Run

noncomputable section

namespace Cert.KernelIdeal.Whole

open Cert.KernelIdeal Cert.KernelIdeal.Gen Cert.KernelIdeal.Value Cert.KernelIdeal.Block
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The body's one store covers the output block, and its loads are whole blocks: what it leaves is the block
    function of the loaded blocks themselves. -/
theorem out_eq (x0 : FVec Ideal S4x512x1024 .f32) (x1 : FVec Ideal S512x1024 .f32) (x2 x3 : FVec Ideal S1x1024 .f32) :
    out0_4 (F := Ideal) x0 x1 x2 x3 = E4 x0 x1 x2 x3 := by
  funext y
  unfold out0_4
  rw [canon4_eq]
  simp only [View.ld_unit_zero (S := S4x512x1024) hz3, View.ld_unit_zero (S := S512x1024) hz2,
    View.ld_unit_zero (S := S1x1024) hz2]

/-- The printed index maps, decided over the 8 grid points: the input and output blocks move along the position axis
    with the point, the position block along its first axis, the weight and bias blocks not at all. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

/-! ## The arrays the windows stage, as the region finds them -/

/-- The weight's window stages the vector reshaped to [1, 1024]. -/
theorem V_weight (c : Dev nD) :
    (V m c main_call0_v0 : S1x1024.Idx → EReal) = shapeCast S1x1024 (m ((c : Thread nD τ).loc main_arg2)) shapeCasts_S1024_S1x1024 := by
  dsimp only [V, hostOps0]; after_results; rfl

/-- The bias's window stages the vector reshaped to [1, 1024]. -/
theorem V_bias (c : Dev nD) :
    (V m c main_call0_v1 : S1x1024.Idx → EReal) = shapeCast S1x1024 (m ((c : Thread nD τ).loc main_arg3)) shapeCasts_S1024_S1x1024 := by
  dsimp only [V, hostOps0]; after_results; rfl

/-! ## The blocks at a point, read at coordinates -/

/-- Element (b, r, k) of point t's input block is the input at (b, 512 t + r, k). -/
theorem read_input (c : Dev nD) (t : Fin cfg0.N) (b : Fin 4) (r : Fin 512) (k : Fin 1024) (s : Fin 4096)
    (hs : s.val = t.val * 512 + r.val) :
    (iblk m c 0 t : FVec Ideal S4x512x1024 .f32) (ix3 b r k)
      = (m ((c : Thread nD τ).loc main_arg0) : S4x4096x1024.Idx → EReal) (ix3 b s k) := by
  obtain ⟨e0, e1, e2, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 4 + 1 * b.val = b.val; rw [e0]; omega
  | ⟨1, _⟩ => show win0_0.index t (1 : Fin 3) * 512 + 1 * r.val = s.val; rw [e1, hs]; omega
  | ⟨2, _⟩ => show win0_0.index t (2 : Fin 3) * 1024 + 1 * k.val = k.val; rw [e2]; omega

/-- Element (r, k) of point t's position block is the position table at (512 t + r, k). -/
theorem read_pos (c : Dev nD) (t : Fin cfg0.N) (r : Fin 512) (k : Fin 1024) (s : Fin 4096)
    (hs : s.val = t.val * 512 + r.val) :
    (iblk m c 1 t : FVec Ideal S512x1024 .f32) (ix2 r k)
      = (m ((c : Thread nD τ).loc main_arg1) : S4096x1024.Idx → EReal) (ix2 s k) := by
  obtain ⟨-, -, -, e0, e1, -⟩ := idx_facts t
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 2) * 512 + 1 * r.val = s.val; rw [e0, hs]; omega
  | ⟨1, _⟩ => show win0_1.index t (1 : Fin 2) * 1024 + 1 * k.val = k.val; rw [e1]; omega

/-- Element (0, h) of the weight block is the weight at h. -/
theorem read_weight (c : Dev nD) (t : Fin cfg0.N) (h : Fin 1024) :
    (iblk m c 2 t : FVec Ideal S1x1024 .f32) (ix2 (0 : Fin 1) h)
      = (m ((c : Thread nD τ).loc main_arg2) : S1024.Idx → EReal) (ix1 h) := by
  obtain ⟨-, -, -, -, -, e0, e1, -⟩ := idx_facts t
  unfold iblk
  rw [View.read_apply]
  show (V m c main_call0_v0 : S1x1024.Idx → EReal) _ = _
  rw [V_weight]
  refine shapeCast_apply _ _ _ (ix1 h) ?_
  rw [Shape.rowMajor_val_one, Shape.rowMajor_val_two]
  show h.val = (win0_2.index t (0 : Fin 2) * 1 + 1 * 0) * 1024 + (win0_2.index t (1 : Fin 2) * 1024 + 1 * h.val)
  rw [e0, e1]; omega

/-- Element (0, h) of the bias block is the bias at h. -/
theorem read_bias (c : Dev nD) (t : Fin cfg0.N) (h : Fin 1024) :
    (iblk m c 3 t : FVec Ideal S1x1024 .f32) (ix2 (0 : Fin 1) h)
      = (m ((c : Thread nD τ).loc main_arg3) : S1024.Idx → EReal) (ix1 h) := by
  obtain ⟨-, -, -, -, -, -, -, e0, e1, -⟩ := idx_facts t
  unfold iblk
  rw [View.read_apply]
  show (V m c main_call0_v1 : S1x1024.Idx → EReal) _ = _
  rw [V_bias]
  refine shapeCast_apply _ _ _ (ix1 h) ?_
  rw [Shape.rowMajor_val_one, Shape.rowMajor_val_two]
  show h.val = (win0_3.index t (0 : Fin 2) * 1 + 1 * 0) * 1024 + (win0_3.index t (1 : Fin 2) * 1024 + 1 * h.val)
  rw [e0, e1]; omega

/-! ## What a point writes back -/

/-- The result as one function of the four argument arrays as launched. -/
abbrev resultOf (c : Dev nD) : S4x4096x1024.Idx → EReal :=
  LayerNorm.G (m ((c : Thread nD τ).loc main_arg0)) (m ((c : Thread nD τ).loc main_arg1))
    (m ((c : Thread nD τ).loc main_arg2)) (m ((c : Thread nD τ).loc main_arg3))

/-- At block coordinates (b, r, h), point t leaves G's entry at (b, 512 t + r, h). -/
theorem left_at (c : Dev nD) (t : Fin cfg0.N) (b : Fin 4) (r : Fin 512) (h : Fin 1024) (s : Fin 4096)
    (hs : s.val = t.val * 512 + r.val) :
    E4 (F := Ideal) (iblk m c 0 t) (iblk m c 1 t) (iblk m c 2 t) (iblk m c 3 t) (ix3 b r h)
      = LayerNorm.entry (m ((c : Thread nD τ).loc main_arg0)) (m ((c : Thread nD τ).loc main_arg1))
          (m ((c : Thread nD τ).loc main_arg2)) (m ((c : Thread nD τ).loc main_arg3)) b s h := by
  refine (block_apply _ _ _ _ b r h).trans ?_
  have hrow : rowAt (iblk m c 0 t) (iblk m c 1 t) b r
      = LayerNorm.row (m ((c : Thread nD τ).loc main_arg0)) (m ((c : Thread nD τ).loc main_arg1)) b s := by
    funext k
    exact congrArg₂ (fun u v : EReal => u + v) (read_input m c t b r k s hs) (read_pos m c t r k s hs)
  rw [hrow, read_weight, read_bias]
  rfl

/-- WHAT POINT t WRITES BACK is block t of the result function. -/
theorem flushed_eq (c : Dev nD) (t : Fin cfg0.N) :
    (dats m 0 c).flushed 4 t = ((cfg0.win 4).blk t).view.read (Elt Ideal) (resultOf m c) := by
  obtain ⟨-, -, -, -, -, -, -, -, -, e0, e1, e2⟩ := idx_facts t
  have ht : t.val < 8 := Nat.lt_of_lt_of_eq t.isLt N_0
  show (cfg0.win 4).cut (grid0.coords t) ((dats m 0 c).after 4 t) = _
  rw [after0_4]
  funext j
  have hj0 : (j 0).val < 4 := (j 0).isLt
  have hj1 : (j 1).val < 512 := (j 1).isLt
  have hj2 : (j 2).val < 1024 := (j 2).isLt
  have hj : (j : S4x512x1024.Idx) = ix3 (⟨(j 0).val, hj0⟩ : Fin 4) (⟨(j 1).val, hj1⟩ : Fin 512) (⟨(j 2).val, hj2⟩ : Fin 1024) := by
    funext a; apply Fin.ext
    match a with
    | ⟨0, _⟩ => rfl
    | ⟨1, _⟩ => rfl
    | ⟨2, _⟩ => rfl
  show out0_4 (F := Ideal) (iblk m c 0 t) (iblk m c 1 t) (iblk m c 2 t) (iblk m c 3 t) j
      = resultOf m c (((cfg0.win 4).blk t).view.emb j)
  refine (congrFun (out_eq (iblk m c 0 t) (iblk m c 1 t) (iblk m c 2 t) (iblk m c 3 t)) j).trans ?_
  refine (congrArg (E4 (F := Ideal) (iblk m c 0 t) (iblk m c 1 t) (iblk m c 2 t) (iblk m c 3 t)) hj).trans ?_
  refine (left_at m c t ⟨(j 0).val, hj0⟩ ⟨(j 1).val, hj1⟩ ⟨(j 2).val, hj2⟩ ⟨t.val * 512 + (j 1).val, by omega⟩ rfl).trans ?_
  have hb : (⟨(j 0).val, hj0⟩ : Fin 4) = (((cfg0.win 4).blk t).view.emb j) 0 := Fin.ext (by
    show (j 0).val = win0_4.index t (0 : Fin 3) * 4 + 1 * (j 0).val
    rw [e0]; omega)
  have hs : (⟨t.val * 512 + (j 1).val, by omega⟩ : Fin 4096) = (((cfg0.win 4).blk t).view.emb j) 1 := Fin.ext (by
    show t.val * 512 + (j 1).val = win0_4.index t (1 : Fin 3) * 512 + 1 * (j 1).val
    rw [e1]; omega)
  have hh : (⟨(j 2).val, hj2⟩ : Fin 1024) = (((cfg0.win 4).blk t).view.emb j) 2 := Fin.ext (by
    show (j 2).val = win0_4.index t (2 : Fin 3) * 1024 + 1 * (j 2).val
    rw [e2]; omega)
  rw [hb, hs, hh]
  rfl

/-! ## The cover, and the array -/

/-- An index of the array is in point t's block iff each coordinate is in the block's range on its axis. -/
theorem mem_blk (t : Fin cfg0.N) (i : S4x4096x1024.Idx) :
    i ∈ ((cfg0.win 4).blk t).view.set ↔ ∀ a : Fin 3, win0_4.index t a * S4x512x1024.size a ≤ (i a).val
      ∧ (i a).val < win0_4.index t a * S4x512x1024.size a + S4x512x1024.size a := by
  show i ∈ ((View.whole main_v0).slice (win0_4.rect t)).set ↔ _
  rw [View.set_slice_whole, Rect.mem_set_unit]
  exact Iff.rfl

/-- Every index is in the block of the point its row falls in. -/
theorem cover (i : S4x4096x1024.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 1024 := (i 2).isLt
  have hN : cfg0.N = 8 := N_0
  obtain ⟨t, ht⟩ : ∃ t : Fin cfg0.N, t.val = (i 1).val / 512 := ⟨⟨(i 1).val / 512, by rw [hN]; omega⟩, rfl⟩
  obtain ⟨-, -, -, -, -, -, -, -, -, e0, e1, e2⟩ := idx_facts t
  refine ⟨t, flush0_4 t, ?_⟩
  rw [mem_blk]
  intro a
  match a with
  | ⟨0, _⟩ =>
    show win0_4.index t (0 : Fin 3) * 4 ≤ (i 0).val ∧ (i 0).val < win0_4.index t (0 : Fin 3) * 4 + 4
    rw [e0]; omega
  | ⟨1, _⟩ =>
    show win0_4.index t (1 : Fin 3) * 512 ≤ (i 1).val ∧ (i 1).val < win0_4.index t (1 : Fin 3) * 512 + 512
    rw [e1, ht]; omega
  | ⟨2, _⟩ =>
    show win0_4.index t (2 : Fin 3) * 1024 ≤ (i 2).val ∧ (i 2).val < win0_4.index t (2 : Fin 3) * 1024 + 1024
    rw [e2]; omega

/-- THE RESULT ARRAY after the run is G of the argument arrays. -/
theorem final (c : Dev nD) : (dats m 0 c).arrAt 4 cfg0.N = resultOf m c :=
  (dats m 0 c).arrAt_eq_of_cover 4 (resultOf m c) (fun t _ => flushed_eq m c t) cover

/-- The kernel's run: every weakly fair execution terminates with the result buffer at G of the argument arrays as
    launched, and the arguments unchanged. -/
theorem run : θ_run defs (onTc (τ := τ) (main (F := Ideal))) ⟨m, fun _ => 0, ρ⟩ fun r => ∀ c : Dev nD,
      r.2.mem ((c : Thread nD τ).loc main_v0) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.RefRun.lean ====
/-
  The reference program's run. Its @main is a straight line of 56 host operations once the two outlined
  functions are put back at their call sites: three lines build the position ids, the twenty-two lines of the
  table lookup and the one line of the select it calls take the rows of the position table, and thirty lines
  compute the layer normalisation. Every weakly fair execution performs them in order, so each buffer ends at
  the fold of the operations over the launch contents; the result buffer's fold is named here stage by stage
  (the ids, the looked-up rows, the embedded rows, their mean, the centred rows, their variance, the
  normalised rows, the result), so that each stage can be read at an index on its own.
-/
import proofs.«172697_g1580547974938_cont_week2b_934_16_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The stages of the result, as functions of the argument arrays -/

/-- The position ids: entry (b, s) is the word s. -/
def posIds : IVec S4x4096 32 :=
  broadcastInDim S4x4096 ![0, 1] bcast_S1x4096_S4x4096_0_1 (broadcastInDim S1x4096 ![1] bcast_S4096_S1x4096_1 (iotaInDim S4096 32 0))

/-- The ids as the lookup uses them: a negative id is moved up by the table's 4096 rows. -/
def wrapped (ids : IVec S4x4096 32) : IVec S4x4096 32 :=
  select (cmpi .slt ids (broadcastInDim S4x4096 ![] bcast_S_S4x4096 (constantI S_ 32 0#32)))
    (addi ids (broadcastInDim S4x4096 ![] bcast_S_S4x4096 (constantI S_ 32 4096#32))) ids

/-- The start indices of the row gather: the wrapped ids under a trailing unit axis. -/
def starts (ids : IVec S4x4096 32) : IVec S4x4096x1 32 :=
  broadcastInDim S4x4096x1 ![0, 1] bcast_S4x4096_S4x4096x1_0_1 (wrapped ids)

/-- Whether a start index lies among the table's rows 0 … 4095. -/
def inRange (ids : IVec S4x4096 32) : IVec S4x4096 1 :=
  Host.reduce IntOp.andi
    (andi (cmpi .sge (starts ids) (broadcastInDim S4x4096x1 ![] bcast_S_S4x4096x1 (constantI S_ 32 0#32)))
      (cmpi .sle (starts ids) (broadcastInDim S4x4096x1 ![0, 1, 2] bcast_S1x1x1_S4x4096x1_0_1_2
        (broadcastInDim S1x1x1 ![2] bcast_S1_S1x1x1_2 (constantI S1 32 4095#32)))))
    (constantI S_ 1 1#1) reducesTo_S4x4096x1_S4x4096_d2 h_S_

/-- The table lookup: the gathered row where the start index is in range, the fill word elsewhere. -/
def lookup (P : FVec F S4096x1024 .f32) (ids : IVec S4x4096 32) : FVec F S4x4096x1024 .f32 :=
  select (broadcastInDim S4x4096x1024 ![0, 1] bcast_S4x4096_S4x4096x1024_0_1 (inRange ids))
    (Host.gather gather_S4096x1024_S4x4096x1_S4x4096x1024_2_0_n_n_0_2_11024 P (starts ids))
    (broadcastInDim S4x4096x1024 ![] bcast_S_S4x4096x1024 (constant S_ .f32 0x7FC00000#32))

/-- A row's sum divided by the row length, kept on a trailing unit axis. -/
def rowMean (E : FVec F S4x4096x1024 .f32) : FVec F S4x4096x1 .f32 :=
  Host.divf (broadcastInDim S4x4096x1 ![0, 1] bcast_S4x4096_S4x4096x1_0_1
      (Host.reduceAdd E (constant S_ .f32 0x00000000#32) reducesTo_S4x4096x1024_S4x4096_d2 h_S_))
    (broadcastInDim S4x4096x1 ![] bcast_S_S4x4096x1 (constant S_ .f32 0x44800000#32))

/-- Every entry less its row's mean. -/
def centred (E : FVec F S4x4096x1024 .f32) : FVec F S4x4096x1024 .f32 :=
  subf E (broadcastInDim S4x4096x1024 ![0, 1, 2] bcast_S4x4096x1_S4x4096x1024_0_1_2 (rowMean E))

/-- A row's mean squared deviation, kept on a trailing unit axis. -/
def rowVar (E : FVec F S4x4096x1024 .f32) : FVec F S4x4096x1 .f32 :=
  Host.divf (broadcastInDim S4x4096x1 ![0, 1] bcast_S4x4096_S4x4096x1_0_1
      (Host.reduceAdd (mulf (centred E) (centred E)) (constant S_ .f32 0x00000000#32) reducesTo_S4x4096x1024_S4x4096_d2 h_S_))
    (broadcastInDim S4x4096x1 ![] bcast_S_S4x4096x1 (constant S_ .f32 0x44800000#32))

/-- The centred entries divided by the square root of their row's variance plus epsilon. -/
def normed (E : FVec F S4x4096x1024 .f32) : FVec F S4x4096x1024 .f32 :=
  Host.divf (centred E) (broadcastInDim S4x4096x1024 ![0, 1, 2] bcast_S4x4096x1_S4x4096x1024_0_1_2
    (Host.sqrt (addf (rowVar E) (broadcastInDim S4x4096x1 ![] bcast_S_S4x4096x1 (constant S_ .f32 0x3727C5AC#32)))))

/-- A vector over the hidden axis spread over batch and position. -/
def spread (W : FVec F S1024 .f32) : FVec F S4x4096x1024 .f32 :=
  broadcastInDim S4x4096x1024 ![0, 1, 2] bcast_S1x1x1024_S4x4096x1024_0_1_2 (broadcastInDim S1x1x1024 ![2] bcast_S1024_S1x1x1024_2 W)

/-- The reference's result: the normalised embedded rows, scaled by the weight and shifted by the bias. -/
def result (A : FVec F S4x4096x1024 .f32) (P : FVec F S4096x1024 .f32) (W B : FVec F S1024 .f32) : FVec F S4x4096x1024 .f32 :=
  addf (mulf (normed (addf A (lookup P posIds))) (spread W)) (spread B)

/-! ## @main as a list of operations -/

/-- @main's 56 operations, in order, the lookup function's and the select's at their call sites over the call's buffers. -/
abbrev ops : List (HloOp τ sig (Elt F)) :=
  [ nullary main_v0 (iotaInDim S4096 32 0),
    unary main_v0 main_v1 (broadcastInDim S1x4096 ![1] bcast_S4096_S1x4096_1),
    unary main_v1 main_v2 (broadcastInDim S4x4096 ![0, 1] bcast_S1x4096_S4x4096_0_1),
    TRef.nullary main_call0.c (constantI S_ 32 0#32),
    TRef.unary main_call0.c main_call0.v0 (broadcastInDim S4x4096 ![] bcast_S_S4x4096),
    TRef.binary (.of main_v2) main_call0.v0 main_call0.v1 (cmpi .slt),
    TRef.nullary main_call0.c_0 (constantI S_ 32 4096#32),
    TRef.unary main_call0.c_0 main_call0.v2 (broadcastInDim S4x4096 ![] bcast_S_S4x4096),
    TRef.binary (.of main_v2) main_call0.v2 main_call0.v3 addi,
    TRef.ternary main_call0.v1 main_call0.v3 (.of main_v2) main_call0.call0.v0 select,
    TRef.unary main_call0.call0.v0 main_call0.v5 (broadcastInDim S4x4096x1 ![0, 1] bcast_S4x4096_S4x4096x1_0_1),
    TRef.nullary main_call0.c_1 (constantI S1 32 4095#32),
    TRef.nullary main_call0.c_2 (constantI S_ 32 0#32),
    TRef.unary main_call0.c_2 main_call0.v6 (broadcastInDim S4x4096x1 ![] bcast_S_S4x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x4096x1 ![0, 1, 2] bcast_S1x1x1_S4x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x4096x1_S4x4096_d2 h_S_),
    TRef.binary (.of main_arg1) main_call0.v5 main_call0.v13 (fun x i => Host.gather gather_S4096x1024_S4x4096x1_S4x4096x1024_2_0_n_n_0_2_11024 x i),
    TRef.unary main_call0.v12 main_call0.v14 (broadcastInDim S4x4096x1024 ![0, 1] bcast_S4x4096_S4x4096x1024_0_1),
    TRef.nullary main_call0.cst (constant S_ .f32 0x7FC00000#32),
    TRef.unary main_call0.cst main_call0.v15 (broadcastInDim S4x4096x1024 ![] bcast_S_S4x4096x1024),
    TRef.ternary main_call0.v14 main_call0.v13 main_call0.v15 main_call0.v16 select,
    binary main_arg0 main_v3 main_v4 addf,
    nullary main_cst (constant S_ .f32 0x00000000#32),
    binary main_v4 main_cst main_v5 (fun x v => Host.reduceAdd x v reducesTo_S4x4096x1024_S4x4096_d2 h_S_),
    unary main_v5 main_v6 (broadcastInDim S4x4096x1 ![0, 1] bcast_S4x4096_S4x4096x1_0_1),
    nullary main_cst_0 (constant S_ .f32 0x44800000#32),
    unary main_cst_0 main_v7 (broadcastInDim S4x4096x1 ![] bcast_S_S4x4096x1),
    binary main_v6 main_v7 main_v8 Host.divf,
    unary main_v8 main_v9 (broadcastInDim S4x4096x1024 ![0, 1, 2] bcast_S4x4096x1_S4x4096x1024_0_1_2),
    binary main_v4 main_v9 main_v10 subf,
    binary main_v10 main_v10 main_v11 mulf,
    nullary main_cst_1 (constant S_ .f32 0x00000000#32),
    binary main_v11 main_cst_1 main_v12 (fun x v => Host.reduceAdd x v reducesTo_S4x4096x1024_S4x4096_d2 h_S_),
    unary main_v12 main_v13 (broadcastInDim S4x4096x1 ![0, 1] bcast_S4x4096_S4x4096x1_0_1),
    nullary main_cst_2 (constant S_ .f32 0x44800000#32),
    unary main_cst_2 main_v14 (broadcastInDim S4x4096x1 ![] bcast_S_S4x4096x1),
    binary main_v13 main_v14 main_v15 Host.divf,
    unary main_v8 main_v16 (broadcastInDim S4x4096x1024 ![0, 1, 2] bcast_S4x4096x1_S4x4096x1024_0_1_2),
    binary main_v4 main_v16 main_v17 subf,
    nullary main_cst_3 (constant S_ .f32 0x3727C5AC#32),
    unary main_cst_3 main_v18 (broadcastInDim S4x4096x1 ![] bcast_S_S4x4096x1),
    binary main_v15 main_v18 main_v19 addf,
    unary main_v19 main_v20 Host.sqrt,
    unary main_v20 main_v21 (broadcastInDim S4x4096x1024 ![0, 1, 2] bcast_S4x4096x1_S4x4096x1024_0_1_2),
    binary main_v17 main_v21 main_v22 Host.divf,
    unary main_arg2 main_v23 (broadcastInDim S1x1x1024 ![2] bcast_S1024_S1x1x1024_2),
    unary main_v23 main_v24 (broadcastInDim S4x4096x1024 ![0, 1, 2] bcast_S1x1x1024_S4x4096x1024_0_1_2),
    binary main_v22 main_v24 main_v25 mulf,
    unary main_arg3 main_v26 (broadcastInDim S1x1x1024 ![2] bcast_S1024_S1x1x1024_2),
    unary main_v26 main_v27 (broadcastInDim S4x4096x1024 ![0, 1, 2] bcast_S1x1x1024_S4x4096x1024_0_1_2),
    binary main_v25 main_v27 main_v28 addf ]

set_option maxRecDepth 4096 in
/-- @main is that straight line: the two functions' definitions unfolded at their calls, and sequencing re-associated. -/
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., nullary_bufs_sub .., binary_bufs_sub .., unary_bufs_sub .., nullary_bufs_sub .., unary_bufs_sub ..,
    binary_bufs_sub .., unary_bufs_sub .., binary_bufs_sub .., binary_bufs_sub .., nullary_bufs_sub .., binary_bufs_sub ..,
    unary_bufs_sub .., nullary_bufs_sub .., unary_bufs_sub .., binary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..⟩

attribute [local irreducible] Host.reduce Host.gather Host.reduceAdd in
set_option maxRecDepth 8192 in
set_option maxHeartbeats 400000 in
/-- The fold at the result buffer is `result` of the fold's start at the four argument buffers: unrolled, each
    operation's result decides whether the buffer read is the one it writes, and what is left is the stages' term. -/
theorem result_eq (V : Valuation τ sig (Elt F)) :
    after ops V (main_v28 : DevRef τ sig)
      = result (V (main_arg0 : DevRef τ sig)) (V (main_arg1 : DevRef τ sig)) (V (main_arg2 : DevRef τ sig)) (V (main_arg3 : DevRef τ sig)) := by
  after_results_simp
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl

/-- On every device, from any memory with zero counters: every weakly fair execution of @main terminates with the result
    buffer at `result` of the argument arrays as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
          = result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (result_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.HandRun

end
-- ==== Proof.RefValue.lean ====
/-
  The reference's result, read index by index, is the layer normalisation G of the four argument arrays.
  The position ids are s at (b, s); such a word is neither negative nor above 4095, so the lookup's wrap of
  negative ids is not taken, its range mask is all ones, the gather's clamp leaves the row number alone, and the
  looked-up array at (b, s, h) is the position table at (s, h). The embedded row at (b, s) is therefore
  k ↦ A (b, s, k) + P (s, k); the host's two sums over the hidden axis are, at (b, s), the initial value 0 plus
  the sum over k of the summand at (b, s, k); the mean, the variance and the normalised entry are then the row's
  statistics, and the weight and bias, spread over batch and position, are read at h.
-/
import proofs.«172697_g1580547974938_cont_week2b_934_16_alg».proof.Proof.RefRun
import proofs.«172697_g1580547974938_cont_week2b_934_16_alg».proof.Proof.LayerNorm
import Idealize.ShloMosaic.Lib.ValueIdx
import Idealize.ShloMosaic.Lib.Pipeline.Value
import Idealize.ShloMosaic.PureOps.Ideal.Laws
import Idealize.ShloMosaic.Lib.Affine

noncomputable section

namespace Cert.ReferenceIdeal.RefValue

open Cert.ReferenceIdeal Cert.ReferenceIdeal.Gen Cert.ReferenceIdeal.HandRun Idealize.ShloMosaic Idealize.ShloMosaic.ValueIdx
open scoped BigOperators

/-! ## Words -/

/-- A natural number below 4096, as a 32-bit word read signed, is itself. -/
theorem toInt_ofNat_lt (s : Nat) (hs : s < 4096) : (BitVec.ofNat 32 s).toInt = (s : Int) := by
  rw [BitVec.toInt_eq_toNat_cond, BitVec.toNat_ofNat, Nat.mod_eq_of_lt (by omega), if_pos (by omega)]

/-- A left fold by `and` over one-bit words that starts at 1 and meets only 1s ends at 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hf => by
    rw [List.foldl_cons]
    refine foldl_andi_ones f l _ ?_ (fun n hn => hf n (List.mem_cons_of_mem _ hn))
    rw [h, hf a (List.mem_cons.mpr (Or.inl rfl))]
    rfl

/-! ## The layout operations at coordinates -/

section Layout
variable {α : Type}

/-- A [4, 4096] array under a trailing unit axis, at (b, s, 0), is the array at (b, s). -/
theorem keep_apply (v : S4x4096.Idx → α) (b : Fin 4) (s : Fin 4096) :
    broadcastInDim S4x4096x1 ![0, 1] bcast_S4x4096_S4x4096x1_0_1 v (ix3 b s (0 : Fin 1)) = v (ix2 b s) :=
  broadcastInDim_apply _ _ v _ (ix2 b s) (fun a => match a with | ⟨0, _⟩ => rfl | ⟨1, _⟩ => rfl)

/-- A [4, 4096, 1] column spread along the hidden axis, at (b, s, h), is the column at (b, s, 0). -/
theorem col_apply (v : S4x4096x1.Idx → α) (b : Fin 4) (s : Fin 4096) (h : Fin 1024) :
    broadcastInDim S4x4096x1024 ![0, 1, 2] bcast_S4x4096x1_S4x4096x1024_0_1_2 v (ix3 b s h) = v (ix3 b s (0 : Fin 1)) :=
  broadcastInDim_apply _ _ v _ (ix3 b s (0 : Fin 1)) (fun a => match a with | ⟨0, _⟩ => rfl | ⟨1, _⟩ => rfl | ⟨2, _⟩ => rfl)

/-- A [4, 4096] array spread along the hidden axis, at (b, s, h), is the array at (b, s). -/
theorem mask_apply (v : S4x4096.Idx → α) (b : Fin 4) (s : Fin 4096) (h : Fin 1024) :
    broadcastInDim S4x4096x1024 ![0, 1] bcast_S4x4096_S4x4096x1024_0_1 v (ix3 b s h) = v (ix2 b s) :=
  broadcastInDim_apply _ _ v _ (ix2 b s) (fun a => match a with | ⟨0, _⟩ => rfl | ⟨1, _⟩ => rfl)

end Layout

/-- A hidden-axis vector spread over batch and position, at (b, s, h), is the vector at h. -/
theorem spread_apply (W : FVec Ideal S1024 .f32) (b : Fin 4) (s : Fin 4096) (h : Fin 1024) :
    spread W (ix3 b s h) = W (ix1 h) :=
  (broadcastInDim_apply _ _ _ (ix3 b s h) (ix3 (0 : Fin 1) (0 : Fin 1) h)
      (fun a => match a with | ⟨0, _⟩ => rfl | ⟨1, _⟩ => rfl | ⟨2, _⟩ => rfl)).trans
    (broadcastInDim_apply _ _ W _ (ix1 h) (fun a => match a with | ⟨0, _⟩ => rfl))

/-! ## The lookup -/

/-- The position id at (b, s) is the word s. -/
theorem posIds_apply (b : Fin 4) (s : Fin 4096) : posIds (ix2 b s) = BitVec.ofNat 32 s.val :=
  (broadcastInDim_apply _ _ _ (ix2 b s) (ix2 (0 : Fin 1) s) (fun a => match a with | ⟨0, _⟩ => rfl | ⟨1, _⟩ => rfl)).trans
    ((broadcastInDim_apply _ _ _ (ix2 (0 : Fin 1) s) (ix1 s) (fun a => match a with | ⟨0, _⟩ => rfl)).trans rfl)

/-- It is not negative, so the wrap is not taken. -/
theorem wrapped_apply (b : Fin 4) (s : Fin 4096) : wrapped posIds (ix2 b s) = BitVec.ofNat 32 s.val := by
  show Scalar.select (IntOp.cmpi .slt (posIds (ix2 b s)) 0#32) (IntOp.addi (posIds (ix2 b s)) 4096#32) (posIds (ix2 b s)) = _
  rw [posIds_apply]
  refine if_neg fun hc => ?_
  have h0 : (0#32 : BitVec 32).toInt = 0 := by decide
  have hlt := IntOp.cmpi_slt.mp hc
  rw [toInt_ofNat_lt _ s.isLt, h0] at hlt
  omega

/-- The gather's start index at (b, s, 0) is the word s. -/
theorem starts_apply (b : Fin 4) (s : Fin 4096) : starts posIds (ix3 b s (0 : Fin 1)) = BitVec.ofNat 32 s.val :=
  (keep_apply _ b s).trans (wrapped_apply b s)

/-- Every start index is among the rows 0 … 4095: the range mask is all ones. -/
theorem inRange_apply (j : S4x4096.Idx) : inRange posIds j = 1#1 := by
  unfold inRange
  rw [Host.reduce_eq_foldl]
  refine foldl_andi_ones _ _ _ rfl (fun i _ => ?_)
  obtain ⟨b, s, z, rfl⟩ : ∃ (b : Fin 4) (s : Fin 4096) (z : Fin 1), i = ix3 b s z := ⟨i 0, i 1, i 2, eq_ix3 i⟩
  obtain rfl : z = 0 := Subsingleton.elim _ _
  show IntOp.andi (IntOp.cmpi .sge (starts posIds (ix3 b s (0 : Fin 1))) 0#32)
      (IntOp.cmpi .sle (starts posIds (ix3 b s (0 : Fin 1))) 4095#32) = 1#1
  have h0 : (0#32 : BitVec 32).toInt = 0 := by decide
  have h1 : (4095#32 : BitVec 32).toInt = 4095 := by decide
  rw [starts_apply, IntOp.andi_eq_one, IntOp.cmpi_sge, IntOp.cmpi_sle, toInt_ofNat_lt _ s.isLt, h0, h1]
  have := s.isLt
  constructor <;> omega

/-- THE ROW GATHER at (b, s, h): the table at (the start index at (b, s, 0) read signed and clamped into 0 … 4095, h). -/
theorem gather_apply {α : Type} (x : S4096x1024.Idx → α) (idx : IVec S4x4096x1 32) (b : Fin 4) (s : Fin 4096) (h : Fin 1024) :
    Host.gather gather_S4096x1024_S4x4096x1_S4x4096x1024_2_0_n_n_0_2_11024 x idx (ix3 b s h)
      = x (ix2 (⟨min (idx (ix3 b s (0 : Fin 1))).toInt.toNat 4095, by omega⟩ : Fin 4096) h) := by
  unfold Host.gather; congr 1; funext a; apply Fin.ext
  fin_cases a <;>
    simp [GatherDims.operandIdx, GatherDims.start, GatherDims.offCoord, GatherDims.batchCoord,
      gather_S4096x1024_S4x4096x1_S4x4096x1024_2_0_n_n_0_2_11024, GatherDims.sKept, Shape.kept]
  · refine congrArg (fun q => min (idx q).toInt.toNat 4095) (funext fun c => Fin.ext ?_)
    match c with
    | ⟨0, _⟩ => rfl
    | ⟨1, _⟩ => rfl
    | ⟨2, _⟩ => rfl
  · first
      | rfl
      | exact congrArg (fun a => ((ix3 b s h) a : ℕ)) (by decide)

/-- The looked-up array at (b, s, h) is the position table at (s, h). -/
theorem lookup_apply (P : FVec Ideal S4096x1024 .f32) (b : Fin 4) (s : Fin 4096) (h : Fin 1024) :
    lookup P posIds (ix3 b s h) = P (ix2 s h) := by
  unfold lookup
  rw [select_apply, mask_apply, inRange_apply, select_one, gather_apply]
  refine congrArg P (congrArg (fun q : Fin 4096 => ix2 q h) (Fin.ext ?_))
  show min (starts posIds (ix3 b s (0 : Fin 1))).toInt.toNat 4095 = s.val
  rw [starts_apply, toInt_ofNat_lt _ s.isLt, Int.toNat_natCast]
  have := s.isLt
  omega

/-! ## The two sums over the hidden axis, and the stages -/

/-- The host's sum over the hidden axis from the zero word, at (b, s): the sum over k of the summand at (b, s, k). -/
theorem rowSum_apply (E : FVec Ideal S4x4096x1024 .f32) (b : Fin 4) (s : Fin 4096) :
    Host.reduceAdd E (constant (F := Ideal) S_ .f32 0x00000000#32) reducesTo_S4x4096x1024_S4x4096_d2 h_S_ (ix2 b s)
      = ∑ k : Fin 1024, E (ix3 b s k) := by
  have hR : S4x4096x1024.Reduces [2] S4x4096 := by decide
  show Ideal.hostReduceAdd reducesTo_S4x4096x1024_S4x4096_d2 E (Ideal.ofBits .f32 0x00000000#32) (ix2 b s) = _
  rw [Ideal.hostReduceAdd_single _ hR, Ideal.ofBits_zero_f32, zero_add]
  show ∑ k : Fin 1024, E (hR.lift (ix2 b s) k) = _
  refine Finset.sum_congr rfl fun k _ => congrArg E (funext fun a => Fin.ext ?_)
  match a with
  | ⟨0, _⟩ => rfl
  | ⟨1, _⟩ => rfl
  | ⟨2, _⟩ => rfl

/-- The row of an array at batch b and position s. -/
def rowOf (E : FVec Ideal S4x4096x1024 .f32) (b : Fin 4) (s : Fin 4096) : Fin 1024 → EReal := fun k => E (ix3 b s k)

theorem rowMean_apply (E : FVec Ideal S4x4096x1024 .f32) (b : Fin 4) (s : Fin 4096) :
    rowMean E (ix3 b s (0 : Fin 1)) = LayerNorm.mean (rowOf E b s) := by
  show Ideal.div (broadcastInDim S4x4096x1 ![0, 1] bcast_S4x4096_S4x4096x1_0_1
      (Host.reduceAdd E (constant (F := Ideal) S_ .f32 0x00000000#32) reducesTo_S4x4096x1024_S4x4096_d2 h_S_) (ix3 b s (0 : Fin 1)))
      (Ideal.ofBits .f32 0x44800000#32) = _
  rw [keep_apply, rowSum_apply]
  rfl

theorem centred_apply (E : FVec Ideal S4x4096x1024 .f32) (b : Fin 4) (s : Fin 4096) (h : Fin 1024) :
    centred E (ix3 b s h) = E (ix3 b s h) - LayerNorm.mean (rowOf E b s) := by
  show E (ix3 b s h) - broadcastInDim S4x4096x1024 ![0, 1, 2] bcast_S4x4096x1_S4x4096x1024_0_1_2 (rowMean E) (ix3 b s h) = _
  rw [col_apply, rowMean_apply]

theorem rowVar_apply (E : FVec Ideal S4x4096x1024 .f32) (b : Fin 4) (s : Fin 4096) :
    rowVar E (ix3 b s (0 : Fin 1)) = LayerNorm.var (rowOf E b s) := by
  show Ideal.div (broadcastInDim S4x4096x1 ![0, 1] bcast_S4x4096_S4x4096x1_0_1
      (Host.reduceAdd (mulf (centred E) (centred E)) (constant (F := Ideal) S_ .f32 0x00000000#32) reducesTo_S4x4096x1024_S4x4096_d2 h_S_)
      (ix3 b s (0 : Fin 1))) (Ideal.ofBits .f32 0x44800000#32) = _
  rw [keep_apply, rowSum_apply]
  unfold LayerNorm.var
  refine congrArg (fun t => Ideal.div t (Ideal.ofBits .f32 0x44800000#32)) (Finset.sum_congr rfl fun k _ => ?_)
  show centred E (ix3 b s k) * centred E (ix3 b s k) = _
  rw [centred_apply]
  rfl

theorem normed_apply (E : FVec Ideal S4x4096x1024 .f32) (b : Fin 4) (s : Fin 4096) (h : Fin 1024) :
    normed E (ix3 b s h)
      = Ideal.div (E (ix3 b s h) - LayerNorm.mean (rowOf E b s)) (Ideal.sqrt (LayerNorm.shifted (rowOf E b s))) := by
  show Ideal.div (centred E (ix3 b s h)) (broadcastInDim S4x4096x1024 ![0, 1, 2] bcast_S4x4096x1_S4x4096x1024_0_1_2
      (Host.sqrt (addf (rowVar E) (broadcastInDim S4x4096x1 ![] bcast_S_S4x4096x1 (constant (F := Ideal) S_ .f32 0x3727C5AC#32)))) (ix3 b s h)) = _
  rw [centred_apply, col_apply]
  show Ideal.div _ (Ideal.sqrt (rowVar E (ix3 b s (0 : Fin 1)) + Ideal.ofBits .f32 0x3727C5AC#32)) = _
  rw [rowVar_apply]
  rfl

/-! ## The result -/

/-- THE REFERENCE'S RESULT IS G of the four argument arrays. -/
theorem result_eq_G (A : FVec Ideal S4x4096x1024 .f32) (P : FVec Ideal S4096x1024 .f32) (W B : FVec Ideal S1024 .f32) :
    result (F := Ideal) A P W B = LayerNorm.G A P W B := by
  funext i
  obtain ⟨b, s, h, rfl⟩ : ∃ (b : Fin 4) (s : Fin 4096) (h : Fin 1024), i = ix3 b s h := ⟨i 0, i 1, i 2, eq_ix3 i⟩
  show normed (addf A (lookup P posIds)) (ix3 b s h) * spread W (ix3 b s h) + spread B (ix3 b s h)
      = LayerNorm.entry A P W B b s h
  have hrow : rowOf (addf A (lookup P posIds)) b s = LayerNorm.row A P b s := by
    funext k
    show A (ix3 b s k) + lookup P posIds (ix3 b s k) = _
    rw [lookup_apply]
    rfl
  have hent : (addf A (lookup P posIds)) (ix3 b s h) = LayerNorm.row A P b s h := congrFun hrow h
  rw [normed_apply, spread_apply, spread_apply, hrow, hent]
  rfl

end Cert.ReferenceIdeal.RefValue

end
-- ==== Proof.lean ====
/-
  The kernel adds the position table's rows to the input and layer-normalises every row of 1024 entries: with
  x k = input (b, s, k) + table (s, k), mean μ = (Σ x) / 1024 and variance v = (Σ (x − μ)²) / 1024, the result at
  (b, s, h) is (x h − μ) · rsqrt (v + ε) · weight h + bias h. The reference looks the table's rows up through a gather
  at the position ids 0 … 4095 and computes (x h − μ) / sqrt (v + ε) · weight h + bias h.
  At the extended reals the two agree at every input: the ids are in range, so the lookup is the table's row; both
  programs' sums over the hidden axis are the same sums; and v + ε is positive (a square is never negative there),
  where a · rsqrt w = a / sqrt w for every extended real a. Both programs' result arrays are therefore the one function
  G of the four argument arrays (Proof/LayerNorm.lean): the kernel's from its eight blocks (Proof/KernelBlock.lean,
  Proof/KernelValue.lean), the reference's from its run read stage by stage (Proof/RefRun.lean, Proof/RefValue.lean).
  The three frames are the programs' runs with the results dropped, and the idealised kernel is the kernel's own text
  read at the extended reals, so nothing is owed for it.
-/
import proofs.«172697_g1580547974938_cont_week2b_934_16_alg».proof.Defs
import proofs.«172697_g1580547974938_cont_week2b_934_16_alg».proof.Proof.Gen.Kernel
import proofs.«172697_g1580547974938_cont_week2b_934_16_alg».proof.Proof.Gen.Kernel.Skeleton
import proofs.«172697_g1580547974938_cont_week2b_934_16_alg».proof.Proof.Gen.Kernel.Launch
import proofs.«172697_g1580547974938_cont_week2b_934_16_alg».proof.Proof.Gen.Kernel.Points
import proofs.«172697_g1580547974938_cont_week2b_934_16_alg».proof.Proof.Gen.Kernel.Frame
import proofs.«172697_g1580547974938_cont_week2b_934_16_alg».proof.Proof.Gen.KernelIdeal
import proofs.«172697_g1580547974938_cont_week2b_934_16_alg».proof.Proof.Gen.KernelIdeal.Skeleton
import proofs.«172697_g1580547974938_cont_week2b_934_16_alg».proof.Proof.Gen.KernelIdeal.Launch
import proofs.«172697_g1580547974938_cont_week2b_934_16_alg».proof.Proof.Gen.KernelIdeal.Points
import proofs.«172697_g1580547974938_cont_week2b_934_16_alg».proof.Proof.Gen.KernelIdeal.Frame
import proofs.«172697_g1580547974938_cont_week2b_934_16_alg».proof.Proof.Gen.KernelIdeal.Value
import proofs.«172697_g1580547974938_cont_week2b_934_16_alg».proof.Proof.Gen.ReferenceIdeal
import proofs.«172697_g1580547974938_cont_week2b_934_16_alg».proof.Proof.Gen.Pre_finite_inputs
import proofs.«172697_g1580547974938_cont_week2b_934_16_alg».proof.Proof.KernelValue
import proofs.«172697_g1580547974938_cont_week2b_934_16_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- At the extended reals the kernel's result array ends at G of its arguments and the reference's at G of its own,
    which are the same arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.RefValue.result_eq_G, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
